-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S65536x4x50 : Shape := ⟨3, ![65536, 4, 50]⟩
abbrev S65536x13 : Shape := ⟨2, ![65536, 13]⟩
abbrev S16x1000000 : Shape := ⟨2, ![16, 1000000]⟩
abbrev S4x1000000 : Shape := ⟨2, ![4, 1000000]⟩
abbrev S13x1 : Shape := ⟨2, ![13, 1]⟩
abbrev S_ : Shape := ⟨0, ![]⟩

class Facts : Prop where
  bcast_S_S65536x13 : S_.BroadcastsInDim S65536x13 (![] : Fin 0 → Fin S65536x13.rank)
  reducesTo_S65536x13_S_d0_1 : S65536x13.ReducesTo [0, 1] S_
  h_S_ : 0 < S_.numel
  bcast_S_S16x1000000 : S_.BroadcastsInDim S16x1000000 (![] : Fin 0 → Fin S16x1000000.rank)
  reducesTo_S16x1000000_S_d0_1 : S16x1000000.ReducesTo [0, 1] S_
  bcast_S_S4x1000000 : S_.BroadcastsInDim S4x1000000 (![] : Fin 0 → Fin S4x1000000.rank)
  reducesTo_S4x1000000_S_d0_1 : S4x1000000.ReducesTo [0, 1] S_
  bcast_S_S13x1 : S_.BroadcastsInDim S13x1 (![] : Fin 0 → Fin S13x1.rank)
  reducesTo_S13x1_S_d0_1 : S13x1.ReducesTo [0, 1] S_

variable [Facts]

def fn_part1 {F : FTy → Type} [FloatOps F] (main_v13 : IVec S_ 1) (main_v16 : IVec S13x1 1) : IVec S_ 1 :=
  let main_c_5 : IVec S_ 1 := constantI S_ 1 1#1
  let main_v17 : IVec S_ 1 := (fun x v => Host.reduce IntOp.andi x v reducesTo_S13x1_S_d0_1 h_S_) main_v16 main_c_5
  let main_v18 : IVec S_ 1 := andi main_v13 main_v17
  main_v18

def fn {F : FTy → Type} [FloatOps F] (main_arg0 : IVec S65536x16 32) (main_arg1 : IVec S65536x4x50 32) (main_arg2 : FVec F S65536x13 .f32) (main_arg3 : FVec F S16x1000000 .f32) (main_arg4 : FVec F S4x1000000 .f32) (main_arg5 : FVec F S13x1 .f32) : IVec S_ 1 :=
  let main_v0 : FVec F S65536x13 .f32 := Host.absf main_arg2
  let main_cst : FVec F S_ .f32 := constant S_ .f32 0x7F800000#32
  let main_v1 : FVec F S65536x13 .f32 := broadcastInDim S65536x13 ![] bcast_S_S65536x13 main_cst
  let main_v2 : IVec S65536x13 1 := cmpf .olt main_v0 main_v1
  let main_c : IVec S_ 1 := constantI S_ 1 1#1
  let main_v3 : IVec S_ 1 := (fun x v => Host.reduce IntOp.andi x v reducesTo_S65536x13_S_d0_1 h_S_) main_v2 main_c
  let main_v4 : FVec F S16x1000000 .f32 := Host.absf main_arg3
  let main_cst_0 : FVec F S_ .f32 := constant S_ .f32 0x7F800000#32
  let main_v5 : FVec F S16x1000000 .f32 := broadcastInDim S16x1000000 ![] bcast_S_S16x1000000 main_cst_0
  let main_v6 : IVec S16x1000000 1 := cmpf .olt main_v4 main_v5
  let main_c_1 : IVec S_ 1 := constantI S_ 1 1#1
  let main_v7 : IVec S_ 1 := (fun x v => Host.reduce IntOp.andi x v reducesTo_S16x1000000_S_d0_1 h_S_) main_v6 main_c_1
  let main_v8 : IVec S_ 1 := andi main_v3 main_v7
  let main_v9 : FVec F S4x1000000 .f32 := Host.absf main_arg4
  let main_cst_2 : FVec F S_ .f32 := constant S_ .f32 0x7F800000#32
  let main_v10 : FVec F S4x1000000 .f32 := broadcastInDim S4x1000000 ![] bcast_S_S4x1000000 main_cst_2
  let main_v11 : IVec S4x1000000 1 := cmpf .olt main_v9 main_v10
  let main_c_3 : IVec S_ 1 := constantI S_ 1 1#1
  let main_v12 : IVec S_ 1 := (fun x v => Host.reduce IntOp.andi x v reducesTo_S4x1000000_S_d0_1 h_S_) main_v11 main_c_3
  let main_v13 : IVec S_ 1 := andi main_v8 main_v12
  let main_v14 : FVec F S13x1 .f32 := Host.absf main_arg5
  let main_cst_4 : FVec F S_ .f32 := constant S_ .f32 0x7F800000#32
  let main_v15 : FVec F S13x1 .f32 := broadcastInDim S13x1 ![] bcast_S_S13x1 main_cst_4
  let main_v16 : IVec S13x1 1 := cmpf .olt main_v14 main_v15
  fn_part1 (F := F) main_v13 main_v16
-- ==== Kernel.lean ====
abbrev S65536x16 : Shape := ⟨2, ![65536, 16]⟩
abbrev S65536x4x50 : Shape := ⟨3, ![65536, 4, 50]⟩
abbrev S65536x13 : Shape := ⟨2, ![65536, 13]⟩
abbrev S16x1000000 : Shape := ⟨2, ![16, 1000000]⟩
abbrev S4x1000000 : Shape := ⟨2, ![4, 1000000]⟩
abbrev S13x1 : Shape := ⟨2, ![13, 1]⟩
abbrev S16 : Shape := ⟨1, ![16]⟩
abbrev S1x16 : Shape := ⟨2, ![1, 16]⟩
abbrev S_ : Shape := ⟨0, ![]⟩
abbrev S65536x16x1 : Shape := ⟨3, ![65536, 16, 1]⟩
abbrev S65536x16x2 : Shape := ⟨3, ![65536, 16, 2]⟩
abbrev S4 : Shape := ⟨1, ![4]⟩
abbrev S1x4x1 : Shape := ⟨3, ![1, 4, 1]⟩
abbrev S65536x4x50x1 : Shape := ⟨4, ![65536, 4, 50, 1]⟩
abbrev S65536x4x50x2 : Shape := ⟨4, ![65536, 4, 50, 2]⟩
abbrev S65536x200 : Shape := ⟨2, ![65536, 200]⟩
abbrev S1x13 : Shape := ⟨2, ![1, 13]⟩
abbrev S65536x1 : Shape := ⟨2, ![65536, 1]⟩
abbrev S4096x16 : Shape := ⟨2, ![4096, 16]⟩
abbrev S4096x200 : Shape := ⟨2, ![4096, 200]⟩
abbrev S4096x13 : Shape := ⟨2, ![4096, 13]⟩
abbrev S4096x1 : Shape := ⟨2, ![4096, 1]⟩
abbrev S4096 : Shape := ⟨1, ![4096]⟩

abbrev nBuf : Space → Nat
  | .hbm => 58
  | .vmem => 9
  | .smem => 0
  | _ => 0

abbrev bufTy : (tb : Table) → Fin (tcTables nBuf tb) → BufTy
  | .hbm, ⟨0, _⟩ => ⟨S65536x16, .i32⟩
  | .hbm, ⟨1, _⟩ => ⟨S65536x4x50, .i32⟩
  | .hbm, ⟨2, _⟩ => ⟨S65536x13, .f32⟩
  | .hbm, ⟨3, _⟩ => ⟨S16x1000000, .f32⟩
  | .hbm, ⟨4, _⟩ => ⟨S4x1000000, .f32⟩
  | .hbm, ⟨5, _⟩ => ⟨S13x1, .f32⟩
  | .hbm, ⟨6, _⟩ => ⟨S16, .i32⟩
  | .hbm, ⟨7, _⟩ => ⟨S1x16, .i32⟩
  | .hbm, ⟨8, _⟩ => ⟨S_, .i32⟩
  | .hbm, ⟨9, _⟩ => ⟨S1x16, .i32⟩
  | .hbm, ⟨10, _⟩ => ⟨S1x16, .i1⟩
  | .hbm, ⟨11, _⟩ => ⟨S_, .i32⟩
  | .hbm, ⟨12, _⟩ => ⟨S1x16, .i32⟩
  | .hbm, ⟨13, _⟩ => ⟨S1x16, .i32⟩
  | .hbm, ⟨14, _⟩ => ⟨S1x16, .i32⟩
  | .hbm, ⟨15, _⟩ => ⟨S_, .i32⟩
  | .hbm, ⟨16, _⟩ => ⟨S65536x16, .i32⟩
  | .hbm, ⟨17, _⟩ => ⟨S65536x16, .i1⟩
  | .hbm, ⟨18, _⟩ => ⟨S_, .i32⟩
  | .hbm, ⟨19, _⟩ => ⟨S65536x16, .i32⟩
  | .hbm, ⟨20, _⟩ => ⟨S65536x16, .i32⟩
  | .hbm, ⟨21, _⟩ => ⟨S65536x16, .i32⟩
  | .hbm, ⟨22, _⟩ => ⟨S65536x16, .i32⟩
  | .hbm, ⟨23, _⟩ => ⟨S65536x16x1, .i32⟩
  | .hbm, ⟨24, _⟩ => ⟨S65536x16x1, .i32⟩
  | .hbm, ⟨25, _⟩ => ⟨S65536x16x2, .i32⟩
  | .hbm, ⟨26, _⟩ => ⟨S65536x16, .f32⟩
  | .hbm, ⟨27, _⟩ => ⟨S4, .i32⟩
  | .hbm, ⟨28, _⟩ => ⟨S1x4x1, .i32⟩
  | .hbm, ⟨29, _⟩ => ⟨S_, .i32⟩
  | .hbm, ⟨30, _⟩ => ⟨S1x4x1, .i32⟩
  | .hbm, ⟨31, _⟩ => ⟨S1x4x1, .i1⟩
  | .hbm, ⟨32, _⟩ => ⟨S_, .i32⟩
  | .hbm, ⟨33, _⟩ => ⟨S1x4x1, .i32⟩
  | .hbm, ⟨34, _⟩ => ⟨S1x4x1, .i32⟩
  | .hbm, ⟨35, _⟩ => ⟨S1x4x1, .i32⟩
  | .hbm, ⟨36, _⟩ => ⟨S_, .i32⟩
  | .hbm, ⟨37, _⟩ => ⟨S65536x4x50, .i32⟩
  | .hbm, ⟨38, _⟩ => ⟨S65536x4x50, .i1⟩
  | .hbm, ⟨39, _⟩ => ⟨S_, .i32⟩
  | .hbm, ⟨40, _⟩ => ⟨S65536x4x50, .i32⟩
  | .hbm, ⟨41, _⟩ => ⟨S65536x4x50, .i32⟩
  | .hbm, ⟨42, _⟩ => ⟨S65536x4x50, .i32⟩
  | .hbm, ⟨43, _⟩ => ⟨S65536x4x50, .i32⟩
  | .hbm, ⟨44, _⟩ => ⟨S65536x4x50x1, .i32⟩
  | .hbm, ⟨45, _⟩ => ⟨S65536x4x50x1, .i32⟩
  | .hbm, ⟨46, _⟩ => ⟨S65536x4x50x2, .i32⟩
  | .hbm, ⟨47, _⟩ => ⟨S65536x4x50, .f32⟩
  | .hbm, ⟨48, _⟩ => ⟨S_, .i32⟩
  | .hbm, ⟨49, _⟩ => ⟨S65536x4x50, .i32⟩
  | .hbm, ⟨50, _⟩ => ⟨S65536x4x50, .i1⟩
  | .hbm, ⟨51, _⟩ => ⟨S_, .f32⟩
  | .hbm, ⟨52, _⟩ => ⟨S_, .f32⟩
  | .hbm, ⟨53, _⟩ => ⟨S65536x4x50, .f32⟩
  | .hbm, ⟨54, _⟩ => ⟨S65536x4x50, .f32⟩
  | .hbm, ⟨55, _⟩ => ⟨S65536x200, .f32⟩
  | .hbm, ⟨56, _⟩ => ⟨S1x13, .f32⟩
  | .hbm, ⟨57, _⟩ => ⟨S65536x1, .f32⟩
  | .local _ .vmem, ⟨0, _⟩ => ⟨S4096x16, .f32⟩
  | .local _ .vmem, ⟨1, _⟩ => ⟨S4096x16, .f32⟩
  | .local _ .vmem, ⟨2, _⟩ => ⟨S4096x200, .f32⟩
  | .local _ .vmem, ⟨3, _⟩ => ⟨S4096x200, .f32⟩
  | .local _ .vmem, ⟨4, _⟩ => ⟨S4096x13, .f32⟩
  | .local _ .vmem, ⟨5, _⟩ => ⟨S4096x13, .f32⟩
  | .local _ .vmem, ⟨6, _⟩ => ⟨S1x13, .f32⟩
  | .local _ .vmem, ⟨7, _⟩ => ⟨S4096x1, .f32⟩
  | .local _ .vmem, ⟨8, _⟩ => ⟨S4096x1, .f32⟩
  | _, _ => ⟨S65536x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_call0_v0 : Ref sig .tc := ⟨.hbm, 52, rfl⟩
abbrev main_call0_v1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S16_S1x16_1 : S16.BroadcastsInDim S1x16 (![1] : Fin 1 → Fin S1x16.rank)
  bcast_S_S1x16 : S_.BroadcastsInDim S1x16 (![] : Fin 0 → Fin S1x16.rank)
  bcast_S_S65536x16 : S_.BroadcastsInDim S65536x16 (![] : Fin 0 → Fin S65536x16.rank)
  bcast_S1x16_S65536x16_0_1 : S1x16.BroadcastsInDim S65536x16 (![0, 1] : Fin 2 → Fin S65536x16.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S_S65536x4x50 : S_.BroadcastsInDim S65536x4x50 (![] : Fin 0 → Fin S65536x4x50.rank)
  bcast_S1x4x1_S65536x4x50_0_1_2 : S1x4x1.BroadcastsInDim S65536x4x50 (![0, 1, 2] : Fin 3 → Fin S65536x4x50.rank)
  bcast_S65536x4x50_S65536x4x50x1_0_1_2 : S65536x4x50.BroadcastsInDim S65536x4x50x1 (![0, 1, 2] : Fin 3 → Fin S65536x4x50x1.rank)
  concatenates_S65536x4x50x1_S65536x4x50x1_S65536x4x50x2_d3 : Shape.Concatenates [S65536x4x50x1, S65536x4x50x1] S65536x4x50x2 3
  shapeCasts_S65536x4x50_S65536x200 : S65536x4x50.ShapeCasts S65536x200
  shapeCasts_S13x1_S1x13 : S13x1.ShapeCasts S1x13
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x200_S4096x200_0_0 : ∀ a, (![0, 0] : Fin 2 → Nat) a + S4096x200.size a ≤ S4096x200.size a
  h_S4096x200 : 0 < S4096x200.numel
  shapeCasts_S4096x200_S4096x200 : S4096x200.ShapeCasts S4096x200
  inb_S4096x13_S4096x13_0_0 : ∀ a, (![0, 0] : Fin 2 → Nat) a + S4096x13.size a ≤ S4096x13.size a
  h_S4096x13 : 0 < S4096x13.numel
  inb_S1x13_S1x13_0_0 : ∀ a, (![0, 0] : Fin 2 → Nat) a + S1x13.size a ≤ S1x13.size a
  h_S1x13 : 0 < S1x13.numel
  shapeCasts_S1x13_S1x13 : S1x13.ShapeCasts S1x13
  reduces_S4096x200_S4096 : S4096x200.Reduces [1] S4096
  shapeCasts_S4096_S4096x1 : S4096.ShapeCasts S4096x1
  reduces_S4096x16_S4096 : S4096x16.Reduces [1] S4096
  broadcasts_S1x13_S4096x13 : S1x13.Broadcasts S4096x13
  reduces_S4096x13_S4096 : S4096x13.Reduces [1] S4096
  inb_S4096x1_S4096x1_0_0 : ∀ a, (![0, 0] : Fin 2 → Nat) a + S4096x1.size a ≤ S4096x1.size a
  h_S4096x1 : 0 < S4096x1.numel
  gather_S16x1000000_S65536x16x2_S65536x16_n_01_n_n_01_2_11_wf : GatherDims.WF S16x1000000 S65536x16x2 S65536x16 [] [0, 1] [] [0, 1] [] 2 ![1, 1]
  gather_S4x1000000_S65536x4x50x2_S65536x4x50_n_01_n_n_01_3_11_wf : GatherDims.WF S4x1000000 S65536x4x50x2 S65536x4x50 [] [0, 1] [] [0, 1] [] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S65536x16.size a
  hwx0_0 : ∀ i : grid0.Coords, EltTy.bits .f32 = 32 ∨ (Rect.block (s := S65536x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x200.size a ≤ S65536x200.size a
  hwx0_1 : ∀ i : grid0.Coords, EltTy.bits .f32 = 32 ∨ (Rect.block (s := S65536x200) S4096x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x13.size a ≤ S65536x13.size a
  hwx0_2 : ∀ i : grid0.Coords, EltTy.bits .f32 = 32 ∨ (Rect.block (s := S65536x13) S4096x13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x13.size a ≤ S1x13.size a
  hwx0_3 : ∀ i : grid0.Coords, EltTy.bits .f32 = 32 ∨ (Rect.block (s := S1x13) S1x13.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S65536x1.size a
  hwx0_4 : ∀ i : grid0.Coords, EltTy.bits .f32 = 32 ∨ (Rect.block (s := S65536x1) S4096x1.size (cc0_transform_4 i) (hinb0_4 i)).WholeWords (EltTy.packing .f32)

variable [Facts₀]

def gather_S16x1000000_S65536x16x2_S65536x16_n_01_n_n_01_2_11 : GatherDims S16x1000000 S65536x16x2 S65536x16 where
  offsetDims := []
  collapsedSliceDims := [0, 1]
  operandBatchingDims := []
  startIndicesBatchingDims := []
  startIndexMap := [0, 1]
  indexVectorDim := 2
  sliceSizes := ![1, 1]
  wf := gather_S16x1000000_S65536x16x2_S65536x16_n_01_n_n_01_2_11_wf
def gather_S4x1000000_S65536x4x50x2_S65536x4x50_n_01_n_n_01_3_11 : GatherDims S4x1000000 S65536x4x50x2 S65536x4x50 where
  offsetDims := []
  collapsedSliceDims := [0, 1]
  operandBatchingDims := []
  startIndicesBatchingDims := []
  startIndexMap := [0, 1]
  indexVectorDim := 3
  sliceSizes := ![1, 1]
  wf := gather_S4x1000000_S65536x4x50x2_S65536x4x50_n_01_n_n_01_3_11_wf

abbrev win0_0 : Pipeline.Window sig grid0 :=
  Pipeline.Window.ofSpec (Memref.whole main_v16) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S4096x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x16 : Shape := ⟨2, ![65536, 16]⟩
abbrev S65536x4x50 : Shape := ⟨3, ![65536, 4, 50]⟩
abbrev S65536x13 : Shape := ⟨2, ![65536, 13]⟩
abbrev S16x1000000 : Shape := ⟨2, ![16, 1000000]⟩
abbrev S4x1000000 : Shape := ⟨2, ![4, 1000000]⟩
abbrev S13x1 : Shape := ⟨2, ![13, 1]⟩
abbrev S16 : Shape := ⟨1, ![16]⟩
abbrev S1x16 : Shape := ⟨2, ![1, 16]⟩
abbrev S_ : Shape := ⟨0, ![]⟩
abbrev S65536x16x1 : Shape := ⟨3, ![65536, 16, 1]⟩
abbrev S65536x16x2 : Shape := ⟨3, ![65536, 16, 2]⟩
abbrev S4 : Shape := ⟨1, ![4]⟩
abbrev S1x4x1 : Shape := ⟨3, ![1, 4, 1]⟩
abbrev S65536x4x50x1 : Shape := ⟨4, ![65536, 4, 50, 1]⟩
abbrev S65536x4x50x2 : Shape := ⟨4, ![65536, 4, 50, 2]⟩
abbrev S65536x4 : Shape := ⟨2, ![65536, 4]⟩
abbrev S65536 : Shape := ⟨1, ![65536]⟩
abbrev S65536x1 : Shape := ⟨2, ![65536, 1]⟩

abbrev nBuf : Space → Nat
  | .hbm => 63
  | .vmem => 0
  | .smem => 0
  | _ => 0

abbrev bufTy : (tb : Table) → Fin (tcTables nBuf tb) → BufTy
  | .hbm, ⟨0, _⟩ => ⟨S65536x16, .i32⟩
  | .hbm, ⟨1, _⟩ => ⟨S65536x4x50, .i32⟩
  | .hbm, ⟨2, _⟩ => ⟨S65536x13, .f32⟩
  | .hbm, ⟨3, _⟩ => ⟨S16x1000000, .f32⟩
  | .hbm, ⟨4, _⟩ => ⟨S4x1000000, .f32⟩
  | .hbm, ⟨5, _⟩ => ⟨S13x1, .f32⟩
  | .hbm, ⟨6, _⟩ => ⟨S16, .i32⟩
  | .hbm, ⟨7, _⟩ => ⟨S1x16, .i32⟩
  | .hbm, ⟨8, _⟩ => ⟨S_, .i32⟩
  | .hbm, ⟨9, _⟩ => ⟨S1x16, .i32⟩
  | .hbm, ⟨10, _⟩ => ⟨S1x16, .i1⟩
  | .hbm, ⟨11, _⟩ => ⟨S_, .i32⟩
  | .hbm, ⟨12, _⟩ => ⟨S1x16, .i32⟩
  | .hbm, ⟨13, _⟩ => ⟨S1x16, .i32⟩
  | .hbm, ⟨14, _⟩ => ⟨S1x16, .i32⟩
  | .hbm, ⟨15, _⟩ => ⟨S_, .i32⟩
  | .hbm, ⟨16, _⟩ => ⟨S65536x16, .i32⟩
  | .hbm, ⟨17, _⟩ => ⟨S65536x16, .i1⟩
  | .hbm, ⟨18, _⟩ => ⟨S_, .i32⟩
  | .hbm, ⟨19, _⟩ => ⟨S65536x16, .i32⟩
  | .hbm, ⟨20, _⟩ => ⟨S65536x16, .i32⟩
  | .hbm, ⟨21, _⟩ => ⟨S65536x16, .i32⟩
  | .hbm, ⟨22, _⟩ => ⟨S65536x16, .i32⟩
  | .hbm, ⟨23, _⟩ => ⟨S65536x16x1, .i32⟩
  | .hbm, ⟨24, _⟩ => ⟨S65536x16x1, .i32⟩
  | .hbm, ⟨25, _⟩ => ⟨S65536x16x2, .i32⟩
  | .hbm, ⟨26, _⟩ => ⟨S65536x16, .f32⟩
  | .hbm, ⟨27, _⟩ => ⟨S4, .i32⟩
  | .hbm, ⟨28, _⟩ => ⟨S1x4x1, .i32⟩
  | .hbm, ⟨29, _⟩ => ⟨S_, .i32⟩
  | .hbm, ⟨30, _⟩ => ⟨S1x4x1, .i32⟩
  | .hbm, ⟨31, _⟩ => ⟨S1x4x1, .i1⟩
  | .hbm, ⟨32, _⟩ => ⟨S_, .i32⟩
  | .hbm, ⟨33, _⟩ => ⟨S1x4x1, .i32⟩
  | .hbm, ⟨34, _⟩ => ⟨S1x4x1, .i32⟩
  | .hbm, ⟨35, _⟩ => ⟨S1x4x1, .i32⟩
  | .hbm, ⟨36, _⟩ => ⟨S_, .i32⟩
  | .hbm, ⟨37, _⟩ => ⟨S65536x4x50, .i32⟩
  | .hbm, ⟨38, _⟩ => ⟨S65536x4x50, .i1⟩
  | .hbm, ⟨39, _⟩ => ⟨S_, .i32⟩
  | .hbm, ⟨40, _⟩ => ⟨S65536x4x50, .i32⟩
  | .hbm, ⟨41, _⟩ => ⟨S65536x4x50, .i32⟩
  | .hbm, ⟨42, _⟩ => ⟨S65536x4x50, .i32⟩
  | .hbm, ⟨43, _⟩ => ⟨S65536x4x50, .i32⟩
  | .hbm, ⟨44, _⟩ => ⟨S65536x4x50x1, .i32⟩
  | .hbm, ⟨45, _⟩ => ⟨S65536x4x50x1, .i32⟩
  | .hbm, ⟨46, _⟩ => ⟨S65536x4x50x2, .i32⟩
  | .hbm, ⟨47, _⟩ => ⟨S65536x4x50, .f32⟩
  | .hbm, ⟨48, _⟩ => ⟨S_, .i32⟩
  | .hbm, ⟨49, _⟩ => ⟨S65536x4x50, .i32⟩
  | .hbm, ⟨50, _⟩ => ⟨S65536x4x50, .i1⟩
  | .hbm, ⟨51, _⟩ => ⟨S65536x4x50, .f32⟩
  | .hbm, ⟨52, _⟩ => ⟨S65536x4x50, .f32⟩
  | .hbm, ⟨53, _⟩ => ⟨S_, .f32⟩
  | .hbm, ⟨54, _⟩ => ⟨S65536x4, .f32⟩
  | .hbm, ⟨55, _⟩ => ⟨S_, .f32⟩
  | .hbm, ⟨56, _⟩ => ⟨S65536, .f32⟩
  | .hbm, ⟨57, _⟩ => ⟨S_, .f32⟩
  | .hbm, ⟨58, _⟩ => ⟨S65536, .f32⟩
  | .hbm, ⟨59, _⟩ => ⟨S65536, .f32⟩
  | .hbm, ⟨60, _⟩ => ⟨S65536x1, .f32⟩
  | .hbm, ⟨61, _⟩ => ⟨S65536x1, .f32⟩
  | .hbm, ⟨62, _⟩ => ⟨S65536x1, .f32⟩
  | _, _ => ⟨S65536x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S_S1x16 : S_.BroadcastsInDim S1x16 (![] : Fin 0 → Fin S1x16.rank)
  bcast_S_S65536x16 : S_.BroadcastsInDim S65536x16 (![] : Fin 0 → Fin S65536x16.rank)
  bcast_S1x16_S65536x16_0_1 : S1x16.BroadcastsInDim S65536x16 (![0, 1] : Fin 2 → Fin S65536x16.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S_S65536x4x50 : S_.BroadcastsInDim S65536x4x50 (![] : Fin 0 → Fin S65536x4x50.rank)
  bcast_S1x4x1_S65536x4x50_0_1_2 : S1x4x1.BroadcastsInDim S65536x4x50 (![0, 1, 2] : Fin 3 → Fin S65536x4x50.rank)
  bcast_S65536x4x50_S65536x4x50x1_0_1_2 : S65536x4x50.BroadcastsInDim S65536x4x50x1 (![0, 1, 2] : Fin 3 → Fin S65536x4x50x1.rank)
  concatenates_S65536x4x50x1_S65536x4x50x1_S65536x4x50x2_d3 : Shape.Concatenates [S65536x4x50x1, S65536x4x50x1] S65536x4x50x2 3
  reducesTo_S65536x4x50_S65536x4_d2 : S65536x4x50.ReducesTo [2] S65536x4
  h_S_ : 0 < S_.numel
  reducesTo_S65536x16_S65536_d1 : S65536x16.ReducesTo [1] S65536
  reducesTo_S65536x4_S65536_d1 : S65536x4.ReducesTo [1] S65536
  bcast_S65536_S65536x1_0 : S65536.BroadcastsInDim S65536x1 (![0] : Fin 1 → Fin S65536x1.rank)
  gather_S16x1000000_S65536x16x2_S65536x16_n_01_n_n_01_2_11_wf : GatherDims.WF S16x1000000 S65536x16x2 S65536x16 [] [0, 1] [] [0, 1] [] 2 ![1, 1]
  gather_S4x1000000_S65536x4x50x2_S65536x4x50_n_01_n_n_01_3_11_wf : GatherDims.WF S4x1000000 S65536x4x50x2 S65536x4x50 [] [0, 1] [] [0, 1] [] 3 ![1, 1]
  dot_S65536x13_S13x1_S65536x1_1_0_0_1_n_n_wf : DotDims.WF S65536x13 S13x1 S65536x1 [1] [0] [0] [1] [] []

variable [Facts₀]

def gather_S16x1000000_S65536x16x2_S65536x16_n_01_n_n_01_2_11 : GatherDims S16x1000000 S65536x16x2 S65536x16 where
  offsetDims := []
  collapsedSliceDims := [0, 1]
  operandBatchingDims := []
  startIndicesBatchingDims := []
  startIndexMap := [0, 1]
  indexVectorDim := 2
  sliceSizes := ![1, 1]
  wf := gather_S16x1000000_S65536x16x2_S65536x16_n_01_n_n_01_2_11_wf
def gather_S4x1000000_S65536x4x50x2_S65536x4x50_n_01_n_n_01_3_11 : GatherDims S4x1000000 S65536x4x50x2 S65536x4x50 where
  offsetDims := []
  collapsedSliceDims := [0, 1]
  operandBatchingDims := []
  startIndicesBatchingDims := []
  startIndexMap := [0, 1]
  indexVectorDim := 3
  sliceSizes := ![1, 1]
  wf := gather_S4x1000000_S65536x4x50x2_S65536x4x50_n_01_n_n_01_3_11_wf
def dot_S65536x13_S13x1_S65536x1_1_0_0_1_n_n : DotDims S65536x13 S13x1 S65536x1 where
  lhsContracting := [1]
  rhsContracting := [0]
  lhsNonContracting := [0]
  rhsNonContracting := [1]
  lhsBatch := []
  rhsBatch := []
  wf := dot_S65536x13_S13x1_S65536x1_1_0_0_1_n_n_wf

class Facts : Prop extends Facts₀ where

variable [Facts]
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.Arrays.lean ====
/-
  What the kernel's region finds in the four arrays it reads.

  Before its one region the kernel's host program looks up the single entries and the variable-length entries,
  compares each identifier with zero, keeps a looked-up entry where its identifier is positive and puts the float
  zero elsewhere, lays the [65536, 4, 50] result out as [65536, 200], and lays the [13, 1] weight column out as the
  row [1, 13]. The look-ups and the comparison are, operation for operation and literal for literal, the ones the
  reference program makes, so the looked-up arrays and the bits are stated here as the reference's own stages of the
  arguments; the region reads the first as it is, the second through the choice and the re-layout.
-/
import proofs.«147470_j50568944943395_2_alg».proof.Proof.Gen.KernelIdeal.Value
import proofs.«147470_j50568944943395_2_alg».proof.Proof.Gen.ReferenceIdeal.Read
import proofs.«147470_j50568944943395_2_alg».proof.Proof.LibConcatPair
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The array of single entries the region reads is the reference's look-up of the same arguments. -/
theorem single_arr (c : Dev nD) :
    (V m c main_v16 : S65536x16.Idx → EReal)
      = Cert.ReferenceIdeal.Read.val_main_v16 (F := Ideal) (m ((c : Thread nD τ).loc main_arg0)) (m ((c : Thread nD τ).loc main_arg3)) := by
  dsimp only [V]
  simp only [hostOps0, hostOps0_1, hostOps0_2, List.flatten_cons, List.flatten_nil, List.append_nil, List.cons_append, List.nil_append]
  after_results_simp
  simp only [Cert.LibConcatPair.concatenate_pair]
  after_results_simp
  rfl

/-- The weight row the region reads is the weight column laid out as a row. -/
theorem weight_arr (c : Dev nD) :
    (V m c main_v38 : S1x13.Idx → EReal)
      = shapeCast S1x13 (m ((c : Thread nD τ).loc main_arg5) : S13x1.Idx → EReal) shapeCasts_S13x1_S1x13 := by
  dsimp only [V]
  simp only [hostOps0, hostOps0_1, hostOps0_2, List.flatten_cons, List.flatten_nil, List.append_nil, List.cons_append, List.nil_append]
  after_results_simp
  rfl

/-- The array of kept entries the region reads: the reference's variable-length look-up where the reference's
    positivity bit is set, the float zero elsewhere, laid out as 200 columns. -/
theorem kept_arr (c : Dev nD) :
    (V m c main_v37 : S65536x200.Idx → EReal)
      = shapeCast S65536x200
          (select (Cert.ReferenceIdeal.Read.val_main_v35 (F := Ideal) (m ((c : Thread nD τ).loc main_arg1)))
            (Cert.ReferenceIdeal.Read.val_main_v33 (F := Ideal) (m ((c : Thread nD τ).loc main_arg1)) (m ((c : Thread nD τ).loc main_arg4)))
            (broadcastInDim S65536x4x50 ![] bcast_S_S65536x4x50 (constant (F := Ideal) S_ .f32 0x00000000#32)))
          shapeCasts_S65536x4x50_S65536x200 := by
  dsimp only [V]
  simp only [hostOps0, hostOps0_1, hostOps0_2, List.flatten_cons, List.flatten_nil, List.append_nil, List.cons_append, List.nil_append]
  after_results_simp
  simp only [Cert.LibConcatPair.concatenate_pair]
  after_results_simp
  rfl

end Cert.KernelIdeal.Arrays

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.KernelRow.lean ====
/-
  One row of the block the kernel body leaves.

  At a grid point the body holds a [4096, 16] block of single entries, a [4096, 200] block of kept entries, a
  [4096, 13] block of dense values and the [1, 13] row of weights. It adds each row's 16 single entries, adds its
  200 kept entries, adds the two totals, repeats the weight row over the 4096 rows, multiplies it entry by entry with
  the dense block, adds each row's 13 products, and adds that to the row's total. So row `r` of the [4096, 1] block it
  writes holds
      (sum_s single(r, s) + sum_j kept(r, j)) + sum_d dense(r, d) * weight(0, d).
-/
import proofs.«147470_j50568944943395_2_alg».proof.Proof.Gen.KernelIdeal.Value
import proofs.«147470_j50568944943395_2_alg».proof.Proof.LibRows
import proofs.«147470_j50568944943395_2_alg».proof.Proof.LibColsJoin
import Idealize.ShloMosaic.Lib.ValueIdx

noncomputable section

open Finset

namespace Cert.KernelIdeal.Row

open Cert.KernelIdeal Cert.KernelIdeal.Gen Idealize.ShloMosaic Idealize.ShloMosaic.ValueIdx

/-- Row `r` of the block the body writes, from the four blocks it loads. -/
theorem block_row (P0 : Vec Ideal S4096x16 .f32) (P1 : Vec Ideal S4096x200 .f32) (P2 : Vec Ideal S4096x13 .f32)
    (P3 : Vec Ideal S1x13 .f32) (r : Fin 4096) (u : Fin 1) :
    Cert.KernelIdeal.Value.E4 (F := Ideal) P0 P1 P2 P3 (ix2 r u)
      = ((∑ s : Fin 16, P0 (ix2 r s)) + ∑ j : Fin 200, P1 (ix2 r j))
        + ∑ d : Fin 13, P2 (ix2 r d) * P3 (ix2 (0 : Fin 1) d) := by
  have h0 : Cert.KernelIdeal.Value.ix4_0 (ix2 r u) = ix1 r := funext fun a => Fin.ext (by match a with | ⟨0, _⟩ => rfl)
  have h1 : Cert.KernelIdeal.Value.ix4_1 (ix2 r u) = ix1 r := funext fun a => Fin.ext (by match a with | ⟨0, _⟩ => rfl)
  have h2 : Cert.KernelIdeal.Value.ix4_2 (ix2 r u) = ix1 r := funext fun a => Fin.ext (by match a with | ⟨0, _⟩ => rfl)
  have s0 : multiReduction (F := Ideal) .add [1] S4096 (shapeCast S4096x16 P0 shapeCasts_S4096x16_S4096x16) 0x00000000#32
      reduces_S4096x16_S4096 (.inl rfl) rfl (ix1 r) = ∑ s : Fin 16, P0 (ix2 r s) := by
    refine (rowSum_apply (φ := .f32) (shapeCast S4096x16 P0 shapeCasts_S4096x16_S4096x16) 0x00000000#32
      reduces_S4096x16_S4096 (.inl rfl) rfl r).trans ?_
    rw [shapeCast_self]
  have s1 : multiReduction (F := Ideal) .add [1] S4096 (shapeCast S4096x200 P1 shapeCasts_S4096x200_S4096x200) 0x00000000#32
      reduces_S4096x200_S4096 (.inl rfl) rfl (ix1 r) = ∑ j : Fin 200, P1 (ix2 r j) := by
    refine (rowSum_apply (φ := .f32) (shapeCast S4096x200 P1 shapeCasts_S4096x200_S4096x200) 0x00000000#32
      reduces_S4096x200_S4096 (.inl rfl) rfl r).trans ?_
    rw [shapeCast_self]
  have s2 : multiReduction (F := Ideal) .add [1] S4096
      (mulf P2 (broadcastTo S4096x13 (shapeCast S1x13 (shapeCast S1x13 P3 shapeCasts_S1x13_S1x13) shapeCasts_S1x13_S1x13)
        broadcasts_S1x13_S4096x13)) 0x00000000#32 reduces_S4096x13_S4096 (.inl rfl) rfl (ix1 r)
      = ∑ d : Fin 13, P2 (ix2 r d) * P3 (ix2 (0 : Fin 1) d) := by
    refine (rowSum_apply (φ := .f32) (mulf P2 (broadcastTo S4096x13 (shapeCast S1x13 (shapeCast S1x13 P3 shapeCasts_S1x13_S1x13)
      shapeCasts_S1x13_S1x13) broadcasts_S1x13_S4096x13)) 0x00000000#32 reduces_S4096x13_S4096 (.inl rfl) rfl r).trans ?_
    refine sum_congr rfl fun d _ => ?_
    rw [shapeCast_self, shapeCast_self]
    exact congrArg (P2 (ix2 r d) * ·) (Cert.LibColsJoin.bcast_row (by decide) P3 broadcasts_S1x13_S4096x13 r d)
  dsimp only [Cert.KernelIdeal.Value.E4]
  rw [h0, h1, h2]
  exact congrArg₂ (· + ·) (congrArg₂ (· + ·) s0 s1) s2

end Cert.KernelIdeal.Row

end
-- ==== Proof.KernelValue.lean ====
/-
  The kernel's result array as one function of the four arrays its region reads.

  The batch of 65536 rows is cut into 16 blocks of 4096 rows; grid point `t` reads rows `4096 t ... 4096 t + 4095` of
  the single entries, of the kept entries laid out as 200 columns and of the dense values, the whole [1, 13] weight
  row, and writes the same rows of the result. Row `r` of the block it writes depends on row `r` of each block it
  reads and on the weight row only, so the block is the restriction to those rows of ONE function of the whole
  arrays: row `p` of the result is
      (sum_s single(p, s) + sum_j kept(p, j)) + sum_d dense(p, d) * weight(0, d).
  The 16 blocks tile the result (row `p` lies in block `p / 4096`), so the result array ends holding that function.
-/
import proofs.«147470_j50568944943395_2_alg».proof.Proof.Gen.KernelIdeal.Value
import proofs.«147470_j50568944943395_2_alg».proof.Proof.KernelRow
import Idealize.ShloMosaic.Lib.Pipeline.Value
import Idealize.ShloMosaic.Lib.ValueIdx

noncomputable section

open Finset

namespace Cert.KernelIdeal.Pool

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result's rows from the four arrays the region reads. -/
def rowsOf (A0 : S65536x16.Idx → EReal) (A1 : S65536x200.Idx → EReal) (A2 : S65536x13.Idx → EReal)
    (A3 : S1x13.Idx → EReal) : S65536x1.Idx → EReal := fun i =>
  ((∑ s : Fin 16, A0 (ix2 (⟨(i 0).val, (i 0).isLt⟩ : Fin 65536) s))
      + ∑ j : Fin 200, A1 (ix2 (⟨(i 0).val, (i 0).isLt⟩ : Fin 65536) j))
    + ∑ d : Fin 13, A2 (ix2 (⟨(i 0).val, (i 0).isLt⟩ : Fin 65536) d) * A3 (ix2 (0 : Fin 1) d)

theorem hz : (![0, 0] : Fin 2 → Nat) = fun _ => 0 := funext fun a => by fin_cases a <;> rfl

/-- The printed index maps over the 16 grid points: the three row-blocked inputs and the output sit at block row `t`,
    block column 0; the weight row is always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of single entries at point `t`: row `r` is row `4096 t + r` of the array. -/
theorem read_single (c : Dev nD) (t : Fin cfg0.N) (r : Fin 4096) (s : Fin 16) (k : S65536x16.Idx)
    (hk0 : (k 0).val = t.val * 4096 + r.val) (hk1 : (k 1).val = s.val) :
    (iblk m c 0 t : Vec Ideal S4096x16 .f32) (ix2 r s) = (V m c main_v16 : S65536x16.Idx → EReal) k := by
  obtain ⟨e0, e1, -⟩ := idx_facts t
  show (V m c main_v16 : S65536x16.Idx → EReal) (((cfg0.win 0).blk t).view.emb (ix2 r s)) = _
  refine congrArg (V m c main_v16 : S65536x16.Idx → EReal) (funext fun a => Fin.ext ?_)
  match a with
  | ⟨0, _⟩ => show win0_0.index t (0 : Fin 2) * 4096 + 1 * r.val = (k 0).val; rw [e0, hk0]; omega
  | ⟨1, _⟩ => show win0_0.index t (1 : Fin 2) * 16 + 1 * s.val = (k 1).val; rw [e1, hk1]; omega

/-- The block of kept entries at point `t`: row `r` is row `4096 t + r` of the array. -/
theorem read_kept (c : Dev nD) (t : Fin cfg0.N) (r : Fin 4096) (j : Fin 200) (k : S65536x200.Idx)
    (hk0 : (k 0).val = t.val * 4096 + r.val) (hk1 : (k 1).val = j.val) :
    (iblk m c 1 t : Vec Ideal S4096x200 .f32) (ix2 r j) = (V m c main_v37 : S65536x200.Idx → EReal) k := by
  obtain ⟨-, -, e0, e1, -⟩ := idx_facts t
  show (V m c main_v37 : S65536x200.Idx → EReal) (((cfg0.win 1).blk t).view.emb (ix2 r j)) = _
  refine congrArg (V m c main_v37 : S65536x200.Idx → EReal) (funext fun a => Fin.ext ?_)
  match a with
  | ⟨0, _⟩ => show win0_1.index t (0 : Fin 2) * 4096 + 1 * r.val = (k 0).val; rw [e0, hk0]; omega
  | ⟨1, _⟩ => show win0_1.index t (1 : Fin 2) * 200 + 1 * j.val = (k 1).val; rw [e1, hk1]; omega

/-- The block of dense values at point `t`: row `r` is row `4096 t + r` of the array. -/
theorem read_dense (c : Dev nD) (t : Fin cfg0.N) (r : Fin 4096) (d : Fin 13) (k : S65536x13.Idx)
    (hk0 : (k 0).val = t.val * 4096 + r.val) (hk1 : (k 1).val = d.val) :
    (iblk m c 2 t : Vec Ideal S4096x13 .f32) (ix2 r d) = (V m c main_arg2 : S65536x13.Idx → EReal) k := by
  obtain ⟨-, -, -, -, e0, e1, -⟩ := idx_facts t
  show (V m c main_arg2 : S65536x13.Idx → EReal) (((cfg0.win 2).blk t).view.emb (ix2 r d)) = _
  refine congrArg (V m c main_arg2 : S65536x13.Idx → EReal) (funext fun a => Fin.ext ?_)
  match a with
  | ⟨0, _⟩ => show win0_2.index t (0 : Fin 2) * 4096 + 1 * r.val = (k 0).val; rw [e0, hk0]; omega
  | ⟨1, _⟩ => show win0_2.index t (1 : Fin 2) * 13 + 1 * d.val = (k 1).val; rw [e1, hk1]; omega

/-- The weight row at every point is the whole [1, 13] array. -/
theorem read_weight (c : Dev nD) (t : Fin cfg0.N) (d : Fin 13) :
    (iblk m c 3 t : Vec Ideal S1x13 .f32) (ix2 (0 : Fin 1) d) = (V m c main_v38 : S1x13.Idx → EReal) (ix2 (0 : Fin 1) d) := by
  obtain ⟨-, -, -, -, -, -, e0, e1, -⟩ := idx_facts t
  show (V m c main_v38 : S1x13.Idx → EReal) (((cfg0.win 3).blk t).view.emb (ix2 (0 : Fin 1) d)) = _
  refine congrArg (V m c main_v38 : S1x13.Idx → EReal) (funext fun a => Fin.ext ?_)
  match a with
  | ⟨0, _⟩ => show win0_3.index t (0 : Fin 2) * 1 + 1 * 0 = 0; rw [e0]
  | ⟨1, _⟩ => show win0_3.index t (1 : Fin 2) * 13 + 1 * d.val = d.val; rw [e1]; omega

/-- What point `t` writes back is block `t` of the rows' function of the four arrays the region reads. -/
theorem flushed_eq (c : Dev nD) (t : Fin cfg0.N) :
    (dats m 0 c).flushed 4 t = ((cfg0.win 4).blk t).view.read (Elt Ideal)
      (rowsOf (V m c main_v16) (V m c main_v37) (V m c main_arg2) (V m c main_v38)) := by
  rw [Cert.KernelIdeal.Value.flushed4]
  unfold out0_4
  simp only [View.ld_unit_zero (S := S4096x16) hz, View.ld_unit_zero (S := S4096x200) hz,
    View.ld_unit_zero (S := S4096x13) hz, View.ld_unit_zero (S := S1x13) hz]
  obtain ⟨-, -, -, -, -, -, -, -, e0, e1⟩ := idx_facts t
  funext y
  obtain ⟨r, u, rfl⟩ : ∃ (r : Fin 4096) (u : Fin 1), y = ix2 r u := ⟨y 0, y 1, eq_ix2 y⟩
  show (View.canon ([⟨r0_4, k0_pay1 (iblk m c 0 t) (iblk m c 1 t) (iblk m c 2 t) (iblk m c 3 t)⟩] :
      List (View.Piece (Elt Ideal) S4096x1 .f32)) : Vec Ideal S4096x1 .f32) (ix2 r u)
    = rowsOf (V m c main_v16) (V m c main_v37) (V m c main_arg2) (V m c main_v38) (((cfg0.win 4).blk t).view.emb (ix2 r u))
  refine (Cert.KernelIdeal.Value.canon4_eq (F := Ideal) (iblk m c 0 t) (iblk m c 1 t) (iblk m c 2 t) (iblk m c 3 t) (ix2 r u)).trans ?_
  refine (Cert.KernelIdeal.Row.block_row (iblk m c 0 t) (iblk m c 1 t) (iblk m c 2 t) (iblk m c 3 t) r u).trans ?_
  have hrow : ((((cfg0.win 4).blk t).view.emb (ix2 r u)) 0).val = t.val * 4096 + r.val := by
    show win0_4.index t (0 : Fin 2) * 4096 + 1 * r.val = _
    rw [e0]; omega
  unfold rowsOf
  refine congrArg₂ (· + ·) (congrArg₂ (· + ·) (sum_congr rfl fun s _ => ?_) (sum_congr rfl fun j _ => ?_))
    (sum_congr rfl fun d _ => congrArg₂ (· * ·) ?_ ?_)
  · exact read_single m c t r s _ hrow rfl
  · exact read_kept m c t r j _ hrow rfl
  · exact read_dense m c t r d _ hrow rfl
  · exact read_weight m c t d

/-- An index of the result is in point `t`'s block iff each coordinate is in the block's range on its axis. -/
theorem mem_blk (t : Fin cfg0.N) (i : S65536x1.Idx) :
    i ∈ ((cfg0.win 4).blk t).view.set ↔ ∀ a : Fin 2, win0_4.index t a * S4096x1.size a ≤ (i a).val
      ∧ (i a).val < win0_4.index t a * S4096x1.size a + S4096x1.size a := by
  show i ∈ ((View.whole main_v39).slice (win0_4.rect t)).set ↔ _
  rw [View.set_slice_whole, Rect.mem_set_unit]
  exact Iff.rfl

/-- The result array after the run: the rows' function of the four arrays the region reads. Row `p` is written by
    point `p / 4096`. -/
theorem final (c : Dev nD) :
    (dats m 0 c).arrAt 4 cfg0.N = rowsOf (V m c main_v16) (V m c main_v37) (V m c main_arg2) (V m c main_v38) :=
  (dats m 0 c).arrAt_eq_of_cover 4 _ (fun t _ => flushed_eq m c t) fun i => by
    have hi0 : (i 0).val < 65536 := (i 0).isLt
    have hi1 : (i 1).val < 1 := (i 1).isLt
    have hN : cfg0.N = 16 := N_0
    have ht : (i 0).val / 4096 < cfg0.N := by rw [hN]; omega
    obtain ⟨-, -, -, -, -, -, -, -, e0, e1⟩ := idx_facts ⟨(i 0).val / 4096, ht⟩
    refine ⟨⟨(i 0).val / 4096, ht⟩, flush0_4 _, ?_⟩
    rw [mem_blk]
    intro a
    match a with
    | ⟨0, _⟩ =>
      show win0_4.index ⟨(i 0).val / 4096, ht⟩ (0 : Fin 2) * 4096 ≤ (i 0).val
        ∧ (i 0).val < win0_4.index ⟨(i 0).val / 4096, ht⟩ (0 : Fin 2) * 4096 + 4096
      rw [e0]; show (i 0).val / 4096 * 4096 ≤ (i 0).val ∧ (i 0).val < (i 0).val / 4096 * 4096 + 4096; omega
    | ⟨1, _⟩ =>
      show win0_4.index ⟨(i 0).val / 4096, ht⟩ (1 : Fin 2) * 1 ≤ (i 1).val
        ∧ (i 1).val < win0_4.index ⟨(i 0).val / 4096, ht⟩ (1 : Fin 2) * 1 + 1
      rw [e1]; omega

/-- The kernel's run, read: the result array at the rows' function of the arrays the region reads, the arguments
    unchanged. -/
theorem run : θ_run defs (onTc (τ := τ) (main (F := Ideal))) ⟨m, fun _ => 0, ρ⟩ fun r => ∀ c : Dev nD,
      r.2.mem ((c : Thread nD τ).loc main_v39) = rowsOf (V m c main_v16) (V m c main_v37) (V m c main_arg2) (V m c main_v38)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Pool

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.PoolLaw.lean ====
/-
  The pooling law on the extended reals.

  A looked-up entry `x` is kept when its identifier is positive and dropped otherwise. One program writes this as a
  choice, `if b = 1 then x else 0`; the other multiplies `x` by the bit `b` read as the number 0 or 1. On the extended
  reals `x * 1 = x` and `x * 0 = 0` hold at every `x`, the two infinities included, so the two spellings agree with no
  finiteness assumption.

  A row of 4 x 50 kept entries laid out as 200 columns, column `v * 50 + l` holding entry `(v, l)`, has the same sum
  whether its 200 columns are added in one pass or 50 at a time and then over the 4 stretches: a finite sum in a
  commutative monoid may be regrouped freely. Adding the float zero in front of a sum changes nothing.
-/
import Mathlib.Data.EReal.Basic
import Mathlib.Algebra.BigOperators.Fin
import proofs.«147470_j50568944943395_2_alg».proof.Proof.LibBlocks

open Finset

namespace Cert.PoolLaw

/-- A one-bit word is 0 or 1; read as a number and multiplied onto `x` it keeps `x` or leaves zero. -/
theorem mul_bit (x : EReal) (b : BitVec 1) : x * (((b.toNat : ℝ)) : EReal) = if b = 1 then x else 0 := by
  rcases BitVec.eq_zero_or_eq_one b with rfl | rfl
  · rw [if_neg (by decide)]
    show x * (((0 : ℕ) : ℝ) : EReal) = 0
    rw [Nat.cast_zero, EReal.coe_zero, mul_zero]
  · rw [if_pos (show (1#1 : BitVec 1) = 1 from rfl)]
    show x * (((1 : ℕ) : ℝ) : EReal) = x
    rw [Nat.cast_one, EReal.coe_one, mul_one]

/-- The row's 200 kept columns added in one pass equal the 4 stretches of 50 each added from zero and then added
    from zero: column `v * 50 + l` is entry `(v, l)`. -/
theorem regroup (g : Fin (4 * 50) → EReal) (f : Fin 4 → Fin 50 → EReal)
    (h : ∀ (v : Fin 4) (l : Fin 50), g (Cert.LibBlocks.entry v l) = f v l) :
    ∑ j, g j = 0 + ∑ v : Fin 4, (0 + ∑ l : Fin 50, f v l) := by
  rw [Cert.LibBlocks.sum_entries g, zero_add]
  refine sum_congr rfl fun v _ => ?_
  rw [zero_add]
  exact sum_congr rfl fun l _ => h v l

end Cert.PoolLaw
-- ==== Proof.Pooled.lean ====
/-
  The pooled linear model as one function of five arrays.

  For every batch row `p` there are 16 looked-up single entries `gs(p, s)`, 4 x 50 looked-up variable-length
  entries `gv(p, v, l)` each with a bit `cb(p, v, l)` saying whether its identifier is positive, 13 dense values
  `dv(p, d)` and a column of 13 weights `dw(d, 0)`. The result's one column holds, at row `p`,

      (sum_s gs(p, s) + sum_v sum_l kept(p, v, l)) + sum_d dv(p, d) * dw(d, 0),

  where `kept(p, v, l)` is `gv(p, v, l)` when the bit is set and zero otherwise.

  The 4 x 50 entries of a row also appear laid out as 200 columns: the array [65536, 4, 50] and the array
  [65536, 200] hold the same numbers in the same row-major order, entry `(p, v, l)` at column `v * 50 + l`.
-/
import Idealize.ShloMosaic.PureOps.Ideal
import Idealize.ShloMosaic.Lib.ValueIdx
import Idealize.ShloMosaic.Lib.Pipeline.Value
import proofs.«147470_j50568944943395_2_alg».proof.Proof.PoolLaw

noncomputable section

open Finset

namespace Cert.Pooled

open Idealize.ShloMosaic Idealize.ShloMosaic.ValueIdx

abbrev Sgs : Shape := ⟨2, ![65536, 16]⟩
abbrev Sgv : Shape := ⟨3, ![65536, 4, 50]⟩
abbrev Sflat : Shape := ⟨2, ![65536, 200]⟩
abbrev Sdv : Shape := ⟨2, ![65536, 13]⟩
abbrev Sdw : Shape := ⟨2, ![13, 1]⟩
abbrev Sout : Shape := ⟨2, ![65536, 1]⟩

/-- A looked-up entry where its identifier is positive, zero elsewhere. -/
def kept (gv : FVec Ideal Sgv .f32) (cb : IVec Sgv 1) (p : Fin 65536) (v : Fin 4) (l : Fin 50) : EReal :=
  if cb (ix3 p v l) = 1 then gv (ix3 p v l) else 0

/-- Row `p` of the result. -/
def row (gs : FVec Ideal Sgs .f32) (gv : FVec Ideal Sgv .f32) (cb : IVec Sgv 1) (dv : FVec Ideal Sdv .f32)
    (dw : FVec Ideal Sdw .f32) (p : Fin 65536) : EReal :=
  ((∑ s : Fin 16, gs (ix2 p s)) + ∑ v : Fin 4, ∑ l : Fin 50, kept gv cb p v l)
    + ∑ d : Fin 13, dv (ix2 p d) * dw (ix2 d (0 : Fin 1))

/-- The result array: its one column holds each row's value. -/
def G (gs : FVec Ideal Sgs .f32) (gv : FVec Ideal Sgv .f32) (cb : IVec Sgv 1) (dv : FVec Ideal Sdv .f32)
    (dw : FVec Ideal Sdw .f32) : FVec Ideal Sout .f32 :=
  fun i => row gs gv cb dv dw ⟨(i 0).val, (i 0).isLt⟩

theorem G_apply (gs : FVec Ideal Sgs .f32) (gv : FVec Ideal Sgv .f32) (cb : IVec Sgv 1) (dv : FVec Ideal Sdv .f32)
    (dw : FVec Ideal Sdw .f32) (p : Fin 65536) (q : Fin 1) :
    G gs gv cb dv dw (ix2 p q) = row gs gv cb dv dw p := rfl

/-- The 4 x 50 entries of a row laid out as 200 columns: column `v * 50 + l` of row `p` is entry `(p, v, l)`. -/
theorem flat_apply {α : Type} (x : Sgv.Idx → α) (h : Sgv.ShapeCasts Sflat) (p : Fin 65536) (v : Fin 4) (l : Fin 50) :
    shapeCast Sflat x h (ix2 p (Cert.LibBlocks.entry v l)) = x (ix3 p v l) :=
  shapeCast_apply x h _ _ (by
    rw [Shape.rowMajor_val_three, Shape.rowMajor_val_two]
    show (p.val * 4 + v.val) * 50 + l.val = p.val * 200 + (v.val * 50 + l.val)
    omega)

end Cert.Pooled

end
-- ==== Proof.Bridge.lean ====
/-
  The kernel's rows are the pooled function.

  The kernel's region reads the kept entries laid out as 200 columns and the weights laid out as a row. Column
  `v * 50 + l` of row `p` is the kept entry `(p, v, l)`, so the row's 200 columns add up to the double sum over the 4
  tables and the 50 positions; entry `(0, d)` of the weight row is entry `(d, 0)` of the weight column; and an entry
  chosen between the looked-up value and the float zero by the positivity bit is the kept entry. So the rows the
  kernel writes are the pooled rows of the looked-up arrays, the bits, the dense values and the weight column.
-/
import proofs.«147470_j50568944943395_2_alg».proof.Proof.KernelValue
import proofs.«147470_j50568944943395_2_alg».proof.Proof.Pooled
import Idealize.ShloMosaic.PureOps.Ideal.Laws

noncomputable section

open Finset

namespace Cert.KernelIdeal.Pool

open Cert.KernelIdeal Cert.KernelIdeal.Gen Idealize.ShloMosaic Idealize.ShloMosaic.ValueIdx

/-- The rows' function of the single entries, of the kept entries re-laid as 200 columns, of the dense values and of
    the weight column re-laid as a row is the pooled function of the looked-up arrays and the bits. -/
theorem rows_eq_pooled (gs : FVec Ideal S65536x16 .f32) (gv : FVec Ideal S65536x4x50 .f32) (cb : IVec S65536x4x50 1)
    (dv : FVec Ideal S65536x13 .f32) (dw : FVec Ideal S13x1 .f32) :
    rowsOf gs
        (shapeCast S65536x200 (select cb gv (broadcastInDim S65536x4x50 ![] bcast_S_S65536x4x50
          (constant (F := Ideal) S_ .f32 0x00000000#32))) shapeCasts_S65536x4x50_S65536x200)
        dv (shapeCast S1x13 dw shapeCasts_S13x1_S1x13)
      = Cert.Pooled.G gs gv cb dv dw := by
  funext i
  obtain ⟨p, q, rfl⟩ : ∃ (p : Fin 65536) (q : Fin 1), i = ix2 p q := ⟨i 0, i 1, eq_ix2 i⟩
  rw [Cert.Pooled.G_apply]
  unfold rowsOf Cert.Pooled.row
  refine congrArg₂ (· + ·) (congrArg₂ (· + ·) rfl ?_) (sum_congr rfl fun d _ => congrArg₂ (· * ·) rfl ?_)
  · refine (Cert.LibBlocks.sum_entries (A := 4) (B := 50) _).trans
      (sum_congr rfl fun v _ => sum_congr rfl fun l _ => ?_)
    refine (Cert.Pooled.flat_apply _ shapeCasts_S65536x4x50_S65536x200 p v l).trans ?_
    rw [select_apply]
    unfold Cert.Pooled.kept Scalar.select
    refine if_congr Iff.rfl rfl ?_
    show Ideal.ofBits .f32 0x00000000#32 = 0
    exact Ideal.ofBits_zero_f32
  · exact shapeCast_apply dw shapeCasts_S13x1_S1x13 (ix2 (0 : Fin 1) d) (ix2 d (0 : Fin 1)) (by
      rw [Shape.rowMajor_val_two, Shape.rowMajor_val_two]
      show d.val * 1 + 0 = 0 * 13 + d.val
      omega)

end Cert.KernelIdeal.Pool

end
-- ==== Proof.RefPooled.lean ====
/-
  The reference's result is the pooled function of its looked-up arrays.

  Read from its last operation down: the result's entry `(p, 0)` adds the row's sparse total and the 13-term product
  of the dense row with the weight column; the sparse total adds the 16 single entries, from the float zero, to the
  variable-length total; that total adds, from zero, the four per-table sums, each adding from zero the 50 entries
  multiplied by their bit read as 0.0 or 1.0. A product with the bit is the kept entry, and a leading float zero adds
  nothing, so the entry is the pooled row.
-/
import proofs.«147470_j50568944943395_2_alg».proof.Proof.Gen.ReferenceIdeal.Read
import proofs.«147470_j50568944943395_2_alg».proof.Proof.Pooled

noncomputable section

open Finset

namespace Cert.ReferenceIdeal.Pool

open Cert.ReferenceIdeal Cert.ReferenceIdeal.Gen Cert.ReferenceIdeal.Read
open Idealize.ShloMosaic Idealize.ShloMosaic.ValueIdx

/-- The reference's last stage, as a function of the six arguments, is the pooled function of the two looked-up
    arrays, the positivity bits, the dense values and the weights. -/
theorem result_eq (x0 : IVec S65536x16 32) (x1 : IVec S65536x4x50 32) (x2 : FVec Ideal S65536x13 .f32)
    (x3 : FVec Ideal S16x1000000 .f32) (x4 : FVec Ideal S4x1000000 .f32) (x5 : FVec Ideal S13x1 .f32) :
    val_main_v44 (F := Ideal) x0 x1 x2 x3 x4 x5
      = Cert.Pooled.G (val_main_v16 (F := Ideal) x0 x3) (val_main_v33 (F := Ideal) x1 x4) (val_main_v35 (F := Ideal) x1) x2 x5 := by
  funext i
  obtain ⟨p, q, rfl⟩ : ∃ (p : Fin 65536) (q : Fin 1), i = ix2 p q := ⟨i 0, i 1, eq_ix2 i⟩
  rw [Cert.Pooled.G_apply, val_main_v44_apply, val_main_v43_apply, val_main_v41_apply, val_main_v39_apply,
    val_main_v40_apply, val_main_v42_apply]
  simp only [val_main_v38_apply, val_main_v37_apply, val_main_v36_apply, val_main_cst_apply, val_main_cst_8_apply,
    val_main_cst_9_apply, Ideal.addf_def, Ideal.mulf_def]
  have hq : q.val = 0 := by have := q.isLt; omega
  have e16 : ∀ k : Fin 16, idx_main_v39 (idx_main_v43 (ix2 p q)) k = ix2 p k := fun k =>
    funext fun a => Fin.ext (by match a with | ⟨0, _⟩ => rfl | ⟨1, _⟩ => rfl)
  have e33 : ∀ (v : Fin 4) (l : Fin 50), idx_main_v38 (idx_main_v40 (idx_main_v43 (ix2 p q)) v) l = ix3 p v l :=
    fun v l => funext fun a => Fin.ext (by match a with | ⟨0, _⟩ => rfl | ⟨1, _⟩ => rfl | ⟨2, _⟩ => rfl)
  have el : ∀ d : Fin 13, lidx_main_v42 (ix2 p q) d = ix2 p d := fun d =>
    funext fun a => Fin.ext (by match a with | ⟨0, _⟩ => rfl | ⟨1, _⟩ => rfl)
  have er : ∀ d : Fin 13, ridx_main_v42 (ix2 p q) d = ix2 d (0 : Fin 1) := fun d =>
    funext fun a => Fin.ext (by match a with | ⟨0, _⟩ => rfl | ⟨1, _⟩ => exact hq)
  simp only [e16, e33, el, er, Ideal.ofBits_def, Ideal.ofBits_zero_f32, zero_add]
  unfold Cert.Pooled.row Cert.Pooled.kept
  refine congrArg (· + _) (congrArg (_ + ·) ?_)
  refine sum_congr rfl fun v _ => sum_congr rfl fun l _ => ?_
  exact Cert.PoolLaw.mul_bit _ _

end Cert.ReferenceIdeal.Pool

end
-- ==== Proof.lean ====
/- The proof of `Cert.Claim`: a pooled linear model over looked-up table entries.

   Both programs look up, for every batch row `p`, sixteen single-valued table entries `g_s(p,s)` and
   4 x 50 variable-length table entries `g_v(p,v,l)`, by the same index arithmetic, so the looked-up arrays
   and the bits `c(p,v,l) = [id(p,v,l) > 0]` are one term of the arguments on both sides.

   The kernel keeps an entry where its bit is set and writes zero elsewhere, lays the 4 x 50 entries of a row
   out as 200 columns, and at each row forms
     (sum_s g_s + sum_{j<200} kept(p,j)) + sum_d dense(p,d) * weight(d).
   The reference multiplies each entry by its bit read as 0.0 or 1.0, sums over `l`, then over `v`, and
   adds the 13-term product of the dense row with the weight column.

   On the extended reals `x * 1 = x` and `x * 0 = 0` hold at every `x`, infinities included, and a finite
   sum may be regrouped freely, so the two results agree at every index with no finiteness assumption. -/
import proofs.«147470_j50568944943395_2_alg».proof.Defs
import proofs.«147470_j50568944943395_2_alg».proof.Proof.Gen.Kernel
import proofs.«147470_j50568944943395_2_alg».proof.Proof.Gen.Kernel.Skeleton
import proofs.«147470_j50568944943395_2_alg».proof.Proof.Gen.Kernel.Launch
import proofs.«147470_j50568944943395_2_alg».proof.Proof.Gen.Kernel.Points
import proofs.«147470_j50568944943395_2_alg».proof.Proof.Gen.Kernel.Frame
import proofs.«147470_j50568944943395_2_alg».proof.Proof.Gen.KernelIdeal
import proofs.«147470_j50568944943395_2_alg».proof.Proof.Gen.KernelIdeal.Skeleton
import proofs.«147470_j50568944943395_2_alg».proof.Proof.Gen.KernelIdeal.Launch
import proofs.«147470_j50568944943395_2_alg».proof.Proof.Gen.KernelIdeal.Points
import proofs.«147470_j50568944943395_2_alg».proof.Proof.Gen.KernelIdeal.Frame
import proofs.«147470_j50568944943395_2_alg».proof.Proof.Gen.KernelIdeal.Value
import proofs.«147470_j50568944943395_2_alg».proof.Proof.Gen.ReferenceIdeal
import proofs.«147470_j50568944943395_2_alg».proof.Proof.Gen.ReferenceIdeal.Run
import proofs.«147470_j50568944943395_2_alg».proof.Proof.Gen.ReferenceIdeal.Read
import proofs.«147470_j50568944943395_2_alg».proof.Proof.Gen.Pre_finite_inputs
import proofs.«147470_j50568944943395_2_alg».proof.Proof.Arrays
import proofs.«147470_j50568944943395_2_alg».proof.Proof.Bridge
import proofs.«147470_j50568944943395_2_alg».proof.Proof.RefPooled
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The looked-up arrays, the positivity bits, the dense values and the weight column of core `c`, and the pooled
    function of them: what both programs leave in their result array. -/
abbrev pooledOf (m : (ℓ : Loc Cert.KernelIdeal.nD Cert.KernelIdeal.τ Cert.KernelIdeal.sig) → Buf (Elt Ideal) ℓ)
    (c : Dev Cert.KernelIdeal.nD) : Cert.Pooled.Sout.Idx → EReal :=
  Cert.Pooled.G
    (Cert.ReferenceIdeal.Read.val_main_v16 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3)))
    (Cert.ReferenceIdeal.Read.val_main_v33 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)))
    (Cert.ReferenceIdeal.Read.val_main_v35 (F := Ideal)
      (m ((c.tc : Thread Cert.KernelIdeal.nD Cert.KernelIdeal.τ).loc Cert.KernelIdeal.main_arg1)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg5))

/-- The rows the kernel writes, over the arrays its region finds, are the pooled function of the arguments. -/
theorem kernel_rows (m : (ℓ : Loc Cert.KernelIdeal.nD Cert.KernelIdeal.τ Cert.KernelIdeal.sig) → Buf (Elt Ideal) ℓ)
    (c : Dev Cert.KernelIdeal.nD) :
    Cert.KernelIdeal.Pool.rowsOf (Cert.KernelIdeal.Gen.V m c Cert.KernelIdeal.main_v16)
        (Cert.KernelIdeal.Gen.V m c Cert.KernelIdeal.main_v37) (Cert.KernelIdeal.Gen.V m c Cert.KernelIdeal.main_arg2)
        (Cert.KernelIdeal.Gen.V m c Cert.KernelIdeal.main_v38)
      = pooledOf m c := by
  rw [Cert.KernelIdeal.Arrays.single_arr m c, Cert.KernelIdeal.Arrays.kept_arr m c, Cert.KernelIdeal.Arrays.weight_arr m c,
    Cert.KernelIdeal.Gen.V_main_arg2 m c]
  exact Cert.KernelIdeal.Pool.rows_eq_pooled _ _ _ _ _

/-- Both idealized programs, from memories agreeing on the arguments, end with the pooled function of the arguments in
    their result array: the kernel by its blocks tiling the rows, the reference by its operations read from the last
    one down. -/
theorem algebraic : Cert.algebraic_KernelIdeal_ReferenceIdeal := by
  intro m ρ m' ρ' _ hagree
  refine ⟨fun c => pooledOf m c, ?_, ?_⟩
  · exact (θ_run Cert.KernelIdeal.defs _ _).mono (fun r h c => ⟨(h c).1.trans (kernel_rows m c), (h c).2⟩)
      (Cert.KernelIdeal.Pool.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    refine (Cert.ReferenceIdeal.Read.val_main_v44_eq (F := Ideal) _ _ _ _ _ _).trans ?_
    rw [Cert.ReferenceIdeal.Pool.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
